-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x21 : Shape := ⟨2, ![16384, 21]⟩
abbrev S21x4096 : Shape := ⟨2, ![21, 4096]⟩
abbrev S21 : Shape := ⟨1, ![21]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x21 : S_.BroadcastsInDim S16384x21 (![] : Fin 0 → Fin S16384x21.rank)
  reducesTo_S16384x21_S_d0_1 : S16384x21.ReducesTo [0, 1] S_
  bcast_S_S21x4096 : S_.BroadcastsInDim S21x4096 (![] : Fin 0 → Fin S21x4096.rank)
  reducesTo_S21x4096_S_d0_1 : S21x4096.ReducesTo [0, 1] S_
  bcast_S_S21 : S_.BroadcastsInDim S21 (![] : Fin 0 → Fin S21.rank)
  reducesTo_S21_S_d0 : S21.ReducesTo [0] S_

variable [Facts]

def fn_part1 {F : FTy → Type} [FloatOps F] (main_v13 : IVec S_ 1) (main_v16 : IVec S21 1) : IVec S_ 1 :=
  let main_c_5 : IVec S_ 1 := constantI S_ 1 1#1
  let main_v17 : IVec S_ 1 := (fun x v => Host.reduce IntOp.andi x v reducesTo_S21_S_d0 h_S_) main_v16 main_c_5
  let main_v18 : IVec S_ 1 := andi main_v13 main_v17
  main_v18

def fn {F : FTy → Type} [FloatOps F] (main_arg0 : FVec F S16384x4096 .f32) (main_arg1 : FVec F S16384x21 .f32) (main_arg2 : FVec F S21x4096 .f32) (main_arg3 : FVec F S21 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x21 .f32 := Host.absf main_arg1
  let main_cst_0 : FVec F S_ .f32 := constant S_ .f32 0x7F800000#32
  let main_v5 : FVec F S16384x21 .f32 := broadcastInDim S16384x21 ![] bcast_S_S16384x21 main_cst_0
  let main_v6 : IVec S16384x21 1 := cmpf .olt main_v4 main_v5
  let main_c_1 : IVec S_ 1 := constantI S_ 1 1#1
  let main_v7 : IVec S_ 1 := (fun x v => Host.reduce IntOp.andi x v reducesTo_S16384x21_S_d0_1 h_S_) main_v6 main_c_1
  let main_v8 : IVec S_ 1 := andi main_v3 main_v7
  let main_v9 : FVec F S21x4096 .f32 := Host.absf main_arg2
  let main_cst_2 : FVec F S_ .f32 := constant S_ .f32 0x7F800000#32
  let main_v10 : FVec F S21x4096 .f32 := broadcastInDim S21x4096 ![] bcast_S_S21x4096 main_cst_2
  let main_v11 : IVec S21x4096 1 := cmpf .olt main_v9 main_v10
  let main_c_3 : IVec S_ 1 := constantI S_ 1 1#1
  let main_v12 : IVec S_ 1 := (fun x v => Host.reduce IntOp.andi x v reducesTo_S21x4096_S_d0_1 h_S_) main_v11 main_c_3
  let main_v13 : IVec S_ 1 := andi main_v8 main_v12
  let main_v14 : FVec F S21 .f32 := Host.absf main_arg3
  let main_cst_4 : FVec F S_ .f32 := constant S_ .f32 0x7F800000#32
  let main_v15 : FVec F S21 .f32 := broadcastInDim S21 ![] bcast_S_S21 main_cst_4
  let main_v16 : IVec S21 1 := cmpf .olt main_v14 main_v15
  fn_part1 (F := F) main_v13 main_v16
-- ==== Kernel.lean ====
abbrev S16384x4096 : Shape := ⟨2, ![16384, 4096]⟩
abbrev S16384x21 : Shape := ⟨2, ![16384, 21]⟩
abbrev S21x4096 : Shape := ⟨2, ![21, 4096]⟩
abbrev S21 : Shape := ⟨1, ![21]⟩
abbrev S_ : Shape := ⟨0, ![]⟩
abbrev S128x4096 : Shape := ⟨2, ![128, 4096]⟩
abbrev S4096x128 : Shape := ⟨2, ![4096, 128]⟩
abbrev S1x21 : Shape := ⟨2, ![1, 21]⟩
abbrev S16384x1 : Shape := ⟨2, ![16384, 1]⟩
abbrev S512x4096 : Shape := ⟨2, ![512, 4096]⟩
abbrev S512x21 : Shape := ⟨2, ![512, 21]⟩
abbrev S512x1 : Shape := ⟨2, ![512, 1]⟩
abbrev S512x128 : Shape := ⟨2, ![512, 128]⟩
abbrev S512 : Shape := ⟨1, ![512]⟩
abbrev S16384 : Shape := ⟨1, ![16384]⟩

abbrev nBuf : Space → Nat
  | .hbm => 12
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x21, .f32⟩
  | .hbm, ⟨2, _⟩ => ⟨S21x4096, .f32⟩
  | .hbm, ⟨3, _⟩ => ⟨S21, .f32⟩
  | .hbm, ⟨4, _⟩ => ⟨S_, .i32⟩
  | .hbm, ⟨5, _⟩ => ⟨S_, .f32⟩
  | .hbm, ⟨6, _⟩ => ⟨S128x4096, .f32⟩
  | .hbm, ⟨7, _⟩ => ⟨S4096x128, .f32⟩
  | .hbm, ⟨8, _⟩ => ⟨S1x21, .f32⟩
  | .hbm, ⟨9, _⟩ => ⟨S16384x1, .f32⟩
  | .hbm, ⟨10, _⟩ => ⟨S16384x21, .f32⟩
  | .hbm, ⟨11, _⟩ => ⟨S16384, .f32⟩
  | .local _ .vmem, ⟨0, _⟩ => ⟨S512x4096, .f32⟩
  | .local _ .vmem, ⟨1, _⟩ => ⟨S512x4096, .f32⟩
  | .local _ .vmem, ⟨2, _⟩ => ⟨S512x21, .f32⟩
  | .local _ .vmem, ⟨3, _⟩ => ⟨S512x21, .f32⟩
  | .local _ .vmem, ⟨4, _⟩ => ⟨S4096x128, .f32⟩
  | .local _ .vmem, ⟨5, _⟩ => ⟨S1x21, .f32⟩
  | .local _ .vmem, ⟨6, _⟩ => ⟨S512x1, .f32⟩
  | .local _ .vmem, ⟨7, _⟩ => ⟨S512x1, .f32⟩
  | .local _ .vmem, ⟨8, _⟩ => ⟨S512x21, .f32⟩
  | .local _ .vmem, ⟨9, _⟩ => ⟨S512x21, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x21 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x21 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x21 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S21x4096_S128x4096_01070_000 : S21x4096.Pads (![0, 0] : Fin 2 → Nat) ![107, 0] ![0, 0] S128x4096
  h_S_ : 0 < S_.numel
  transposes_S128x4096_S4096x128_1_0 : S128x4096.Transposes [1, 0] S4096x128
  shapeCasts_S21_S1x21 : S21.ShapeCasts S1x21
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  slices_S512x128_o0_0_S512x21 : S512x128.Slices ![0, 0] S512x21
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S512x21 : S1x21.Broadcasts S512x21
  inb_S512x21_S512x21_0_0 : ∀ a, (![0, 0] : Fin 2 → Nat) a + S512x21.size a ≤ S512x21.size a
  h_S512x21 : 0 < S512x21.numel
  reduces_S512x21_S512 : S512x21.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S16384x1_S16384 : S16384x1.ShapeCasts S16384
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x21.size a ≤ S16384x21.size a
  hwx0_1 : ∀ i : grid0.Coords, EltTy.bits .f32 = 32 ∨ (Rect.block (s := S16384x21) S512x21.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x21.size a ≤ S1x21.size a
  hwx0_3 : ∀ i : grid0.Coords, EltTy.bits .f32 = 32 ∨ (Rect.block (s := S1x21) S1x21.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x21.size a ≤ S16384x21.size a
  hwx0_5 : ∀ i : grid0.Coords, EltTy.bits .f32 = 32 ∨ (Rect.block (s := S16384x21) S512x21.size (cc0_transform_5 i) (hinb0_5 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x21.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x21.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S512x21.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384x21 : Shape := ⟨2, ![16384, 21]⟩
abbrev S21x4096 : Shape := ⟨2, ![21, 4096]⟩
abbrev S21 : Shape := ⟨1, ![21]⟩
abbrev S1x21 : Shape := ⟨2, ![1, 21]⟩
abbrev S_ : Shape := ⟨0, ![]⟩
abbrev S16384 : Shape := ⟨1, ![16384]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x21, .f32⟩
  | .hbm, ⟨2, _⟩ => ⟨S21x4096, .f32⟩
  | .hbm, ⟨3, _⟩ => ⟨S21, .f32⟩
  | .hbm, ⟨4, _⟩ => ⟨S16384x21, .f32⟩
  | .hbm, ⟨5, _⟩ => ⟨S1x21, .f32⟩
  | .hbm, ⟨6, _⟩ => ⟨S16384x21, .f32⟩
  | .hbm, ⟨7, _⟩ => ⟨S16384x21, .f32⟩
  | .hbm, ⟨8, _⟩ => ⟨S16384x21, .f32⟩
  | .hbm, ⟨9, _⟩ => ⟨S_, .f32⟩
  | .hbm, ⟨10, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S21_S1x21_1 : S21.BroadcastsInDim S1x21 (![1] : Fin 1 → Fin S1x21.rank)
  bcast_S1x21_S16384x21_0_1 : S1x21.BroadcastsInDim S16384x21 (![0, 1] : Fin 2 → Fin S16384x21.rank)
  reducesTo_S16384x21_S16384_d1 : S16384x21.ReducesTo [1] S16384
  h_S_ : 0 < S_.numel
  dot_S16384x4096_S21x4096_S16384x21_1_1_0_0_n_n_wf : DotDims.WF S16384x4096 S21x4096 S16384x21 [1] [1] [0] [0] [] []

variable [Facts₀]

def dot_S16384x4096_S21x4096_S16384x21_1_1_0_0_n_n : DotDims S16384x4096 S21x4096 S16384x21 where
  lhsContracting := [1]
  rhsContracting := [1]
  lhsNonContracting := [0]
  rhsNonContracting := [0]
  lhsBatch := []
  rhsBatch := []
  wf := dot_S16384x4096_S21x4096_S16384x21_1_1_0_0_n_n_wf

class Facts : Prop extends Facts₀ where

variable [Facts]
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.Payload.lean ====
/-
  The body of the kernel at one element.

  At one grid point the body holds a block `x` of 512 rows of the activations (512 × 4096), the whole
  transposed and lane-padded weight matrix `w` (4096 × 128), the bias as a one-row matrix `b` (1 × 21)
  and a block `v` of 512 rows of the mixing coefficients (512 × 21). It stores two things:

  * the heads: the 512 × 128 product `x · w`, cut down to its first 21 columns, plus the bias row
    copied into every row; at row `p` and head `q` this is `(∑ k, x[p,k] · w[k,q]) + b[0,q]`;
  * the mixed result: the heads times `v` entry by entry, summed along each row, as a 512 × 1 column;
    at row `p` this is `∑ a, heads[p,a] · v[p,a]`.

  On the extended reals the narrowing of the two matrix operands to sixteen bits is the identity, the
  product accumulates into zero, and the row sum starts from zero, so both readings are exact.
-/
import proofs.«100380_j6373731467819_2_alg».proof.Proof.Gen.KernelIdeal.Skeleton
import proofs.«100380_j6373731467819_2_alg».proof.Proof.LibColumn
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- Head `q` (one of 21) as a lane (one of 128) of the padded product. -/
abbrev lane (q : Fin 21) : Fin 128 := ⟨q.val, by omega⟩

/-- The first 21 columns of a 512 × 128 matrix: column `q` of the cut is lane `q` of the matrix. -/
theorem firstCols_apply (y : FVec Ideal S512x128 .f32) (h : S512x128.Slices ![0, 0] S512x21) (p : Fin 512) (q : Fin 21) :
    extractStridedSlice S512x21 ![0, 0] y h (ix2 p q) = y (ix2 p (lane q)) :=
  extractStridedSlice_apply _ y h (ix2 p q) (ix2 p (lane q)) fun a => match a with
    | ⟨0, _⟩ => by show p.val = 0 + p.val; omega
    | ⟨1, _⟩ => by show q.val = 0 + q.val; omega

/-- A one-row matrix copied into 512 rows reads its own entry of the same column in every row. -/
theorem rowCopies_apply (r : FVec Ideal S1x21 .f32) (h : S1x21.Broadcasts S512x21) (p : Fin 512) (q : Fin 21) :
    broadcastTo S512x21 r h (ix2 p q) = r (ix2 (0 : Fin 1) q) :=
  broadcastTo_apply r h (ix2 p q) (ix2 (0 : Fin 1) q) fun a => match a with
    | ⟨0, _⟩ => rfl
    | ⟨1, _⟩ => rfl

/-- The four coordinates of the two operand indices of the product, at result index `j` and shared index `q`:
    the left operand is read at (row of `j`, `q`), the right one at (`q`, column of `j`). -/
theorem lhs_row (j : S512x128.Idx) (q : dot_S512x4096_S4096x128_S512x128_1_0_0_1_n_n.contr.Idx) :
    (dot_S512x4096_S4096x128_S512x128_1_0_0_1_n_n.lhsIdx j q 0).val = (j 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl
theorem lhs_shared (j : S512x128.Idx) (q : dot_S512x4096_S4096x128_S512x128_1_0_0_1_n_n.contr.Idx) :
    (dot_S512x4096_S4096x128_S512x128_1_0_0_1_n_n.lhsIdx j q 1).val = (q ⟨0, by decide⟩).val :=
  dot_S512x4096_S4096x128_S512x128_1_0_0_1_n_n.lhsIdx_val_of_single rfl j q
theorem rhs_shared (j : S512x128.Idx) (q : dot_S512x4096_S4096x128_S512x128_1_0_0_1_n_n.contr.Idx) :
    (dot_S512x4096_S4096x128_S512x128_1_0_0_1_n_n.rhsIdx j q 0).val = (q ⟨0, by decide⟩).val :=
  dot_S512x4096_S4096x128_S512x128_1_0_0_1_n_n.rhsIdx_val_of_single rfl j q
theorem rhs_col (j : S512x128.Idx) (q : dot_S512x4096_S4096x128_S512x128_1_0_0_1_n_n.contr.Idx) :
    (dot_S512x4096_S4096x128_S512x128_1_0_0_1_n_n.rhsIdx j q 1).val = (j 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl

/-- The product of a 512 × 4096 matrix with a 4096 × 128 one, accumulated into zero, at `(p, c)`: the sum over the
    4096 shared coordinates of the products of the entries. -/
theorem product_apply (x : FVec Ideal S512x4096 .bf16) (w : FVec Ideal S4096x128 .bf16) (p : Fin 512) (c : Fin 128) :
    matmul dot_S512x4096_S4096x128_S512x128_1_0_0_1_n_n none x w (constant S512x128 .f32 0x00000000#32) (ix2 p c)
      = ∑ k : Fin 4096, x (ix2 p k) * w (ix2 k c) := by
  refine (Ideal.matmul_constant_zero_apply dot_S512x4096_S4096x128_S512x128_1_0_0_1_n_n none x w (ix2 p c)).trans ?_
  rw [← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p c)
      ((contrEquiv1 dot_S512x4096_S4096x128_S512x128_1_0_0_1_n_n 4096 rfl rfl).symm k) = ix2 p k :=
    funext fun a => Fin.ext (by
      match a with
      | ⟨0, _⟩ => exact lhs_row _ _
      | ⟨1, _⟩ => exact (lhs_shared _ _).trans hk)
  have er : dot_S512x4096_S4096x128_S512x128_1_0_0_1_n_n.rhsIdx (ix2 p c)
      ((contrEquiv1 dot_S512x4096_S4096x128_S512x128_1_0_0_1_n_n 4096 rfl rfl).symm k) = ix2 k c :=
    funext fun a => Fin.ext (by
      match a with
      | ⟨0, _⟩ => exact (rhs_shared _ _).trans hk
      | ⟨1, _⟩ => exact rhs_col _ _)
  rw [el, er]

/-- THE HEADS at row `p`, head `q`: the row of `x` against column `q` of `w`, plus the bias of head `q`. -/
theorem heads_apply (x : Vec Ideal S512x4096 .f32) (w : Vec Ideal S4096x128 .f32) (b : Vec Ideal S1x21 .f32)
    (p : Fin 512) (q : Fin 21) :
    k0_pay1 (F := Ideal) x w b (ix2 p q)
      = (∑ k : Fin 4096, x (ix2 p k) * w (ix2 k (lane q))) + b (ix2 (0 : Fin 1) q) := by
  unfold k0_pay1
  rw [addf_apply, firstCols_apply, product_apply, rowCopies_apply, shapeCast_self, shapeCast_self]
  rfl

/-- THE MIXED RESULT at row `p`: the heads of that row against the coefficients of that row. -/
theorem mixed_apply (x : Vec Ideal S512x4096 .f32) (w : Vec Ideal S4096x128 .f32) (b : Vec Ideal S1x21 .f32)
    (v : Vec Ideal S512x21 .f32) (p : Fin 512) (u : Fin 1) :
    k0_pay2 (F := Ideal) x w b v (ix2 p u)
      = ∑ a : Fin 21, k0_pay1 (F := Ideal) x w b (ix2 p a) * v (ix2 p a) := by
  unfold k0_pay2
  dsimp only
  rw [Cert.LibColumn.shapeCast_a_a1_apply]
  refine (Ideal.multiReduction_add_single (mulf (k0_pay1 (F := Ideal) x w b) v) 0x00000000#32 reduces_S512x21_S512
    (.inl rfl) rfl (ix1 p)).trans ?_
  refine Finset.sum_congr rfl fun a _ => ?_
  rw [Cert.LibColumn.lift_cols]
  rfl

end Cert.KernelIdeal.Body

end
-- ==== Proof.HostPrefix.lean ====
/-
  The two arrays the host prepares before the kernel is launched, read at an index.

  The kernel's third operand is the weight matrix `W` (21 × 4096) padded with 107 further rows to 128 × 4096 and then
  transposed to 4096 × 128. At `(k, a)` with `a` one of the first 21 columns this is `W[a, k]`: the transpose reads the
  padded matrix at `(a, k)`, and row `a` of the padded matrix is row `a` of `W` itself. (What the padding rows hold is
  never looked at: the kernel drops those columns of the product.)

  The fourth operand is the bias `b` (21 entries) re-laid as a 1 × 21 row: at `(0, a)` it is `b[a]`.
-/
import proofs.«100380_j6373731467819_2_alg».proof.Proof.Gen.KernelIdeal.Frame
import proofs.«100380_j6373731467819_2_alg».proof.Proof.Payload
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Entry

open Idealize.ShloMosaic Idealize.ShloMosaic.TcCoe Idealize.SL.Sem Idealize.ShloMosaic.StableHlo
open Idealize.ShloMosaic.ValueIdx Cert.KernelIdeal Cert.KernelIdeal.Gen Cert.KernelIdeal.Body

variable (m : (ℓ : Loc nD τ sig) → Buf (Elt Ideal) ℓ) (c : Dev nD)

/-- The third operand as the region finds it: `W` padded below with 107 rows, transposed. -/
theorem weightsT_term :
    (V m c main_v1 : S4096x128.Idx → EReal)
      = transpose S4096x128 [1, 0]
          (pad S128x4096 ![0, 0] ![107, 0] ![0, 0] (m ((c : Thread nD τ).loc main_arg2) : S21x4096.Idx → EReal)
            (sitofp (F := Ideal) .f32 (constantI S_ 32 0#32)) pads_S21x4096_S128x4096_01070_000 h_S_)
          transposes_S128x4096_S4096x128_1_0 := by
  dsimp only [V, V0]
  simp only [hostOps0, hostOps0_1, hostOps0_2, List.flatten_cons, List.flatten_nil, List.append_nil, List.cons_append,
    List.nil_append]
  after_results
  rfl

/-- At shared coordinate `k` and head `a` it holds `W[a, k]`. -/
theorem weightsT_apply (k : Fin 4096) (a : Fin 21) :
    (V m c main_v1 : S4096x128.Idx → EReal) (ix2 k (lane a))
      = (m ((c : Thread nD τ).loc main_arg2) : S21x4096.Idx → EReal) (ix2 a k) := by
  rw [weightsT_term]
  refine (transpose_ix2_apply _ transposes_S128x4096_S4096x128_1_0 k (lane a)).trans ?_
  exact pad_apply_of_inside _ _ _ _ _ pads_S21x4096_S128x4096_01070_000 h_S_ (ix2 (lane a) k) (ix2 a k) fun ax =>
    match ax with
    | ⟨0, _⟩ => by show a.val = 0 + a.val * (0 + 1); omega
    | ⟨1, _⟩ => by show k.val = 0 + k.val * (0 + 1); omega

/-- The fourth operand as the region finds it: `b` as one row. -/
theorem biasRow_term :
    (V m c main_v2 : S1x21.Idx → EReal)
      = shapeCast S1x21 (m ((c : Thread nD τ).loc main_arg3) : S21.Idx → EReal) shapeCasts_S21_S1x21 := by
  dsimp only [V, V0]
  simp only [hostOps0, hostOps0_1, hostOps0_2, List.flatten_cons, List.flatten_nil, List.append_nil, List.cons_append,
    List.nil_append]
  after_results
  rfl

/-- At head `a` it holds `b[a]`. -/
theorem biasRow_apply (a : Fin 21) :
    (V m c main_v2 : S1x21.Idx → EReal) (ix2 (0 : Fin 1) a)
      = (m ((c : Thread nD τ).loc main_arg3) : S21.Idx → EReal) (ix1 a) := by
  rw [biasRow_term]
  exact shapeCast_a_1a_apply _ shapeCasts_S21_S1x21 (0 : Fin 1) a

end Cert.KernelIdeal.Entry

end
-- ==== Proof.Spec.lean ====
/-
  What the two results are, as functions of the four argument arrays.

  `x` is 16384 × 4096 (one row of activations per example), `W` is 21 × 4096 (one row of weights per head),
  `b` has 21 entries (one bias per head), `v` is 16384 × 21 (one mixing coefficient per example and head).

  * head `a` of example `r` is the inner product of row `r` of `x` with row `a` of `W`, plus `b[a]`;
  * the mixed result of example `r` is the sum over the 21 heads of head `a` times `v[r, a]`.

  Everything is read on the extended reals; sums there are sums in a commutative monoid, so their order and grouping
  do not matter, and no finiteness of the inputs is used anywhere.
-/
import Idealize.ShloMosaic.PureOps.Ideal
import Idealize.ShloMosaic.Lib.ValueIdx

noncomputable section

open scoped BigOperators

namespace Cert.Heads

open Idealize.ShloMosaic Idealize.ShloMosaic.ValueIdx

/-- Head `a` of example `r`. -/
def headAt (x : (⟨2, ![16384, 4096]⟩ : Shape).Idx → EReal) (W : (⟨2, ![21, 4096]⟩ : Shape).Idx → EReal)
    (b : (⟨1, ![21]⟩ : Shape).Idx → EReal) (r : Fin 16384) (a : Fin 21) : EReal :=
  (∑ k : Fin 4096, x (ix2 r k) * W (ix2 a k)) + b (ix1 a)

/-- All heads, as a 16384 × 21 array. -/
def heads (x : (⟨2, ![16384, 4096]⟩ : Shape).Idx → EReal) (W : (⟨2, ![21, 4096]⟩ : Shape).Idx → EReal)
    (b : (⟨1, ![21]⟩ : Shape).Idx → EReal) : (⟨2, ![16384, 21]⟩ : Shape).Idx → EReal :=
  fun i => headAt x W b (i 0) (i 1)

/-- The mixed result of example `r`. -/
def mixedAt (x : (⟨2, ![16384, 4096]⟩ : Shape).Idx → EReal) (v : (⟨2, ![16384, 21]⟩ : Shape).Idx → EReal)
    (W : (⟨2, ![21, 4096]⟩ : Shape).Idx → EReal) (b : (⟨1, ![21]⟩ : Shape).Idx → EReal) (r : Fin 16384) : EReal :=
  ∑ a : Fin 21, headAt x W b r a * v (ix2 r a)

/-- All mixed results, as a vector of 16384 entries. -/
def mixed (x : (⟨2, ![16384, 4096]⟩ : Shape).Idx → EReal) (v : (⟨2, ![16384, 21]⟩ : Shape).Idx → EReal)
    (W : (⟨2, ![21, 4096]⟩ : Shape).Idx → EReal) (b : (⟨1, ![21]⟩ : Shape).Idx → EReal) :
    (⟨1, ![16384]⟩ : Shape).Idx → EReal :=
  fun i => mixedAt x v W b (i 0)

/-- The same as a 16384 × 1 column: the form in which the kernel writes it, one block of 512 rows per grid point. -/
def mixedColumn (x : (⟨2, ![16384, 4096]⟩ : Shape).Idx → EReal) (v : (⟨2, ![16384, 21]⟩ : Shape).Idx → EReal)
    (W : (⟨2, ![21, 4096]⟩ : Shape).Idx → EReal) (b : (⟨1, ![21]⟩ : Shape).Idx → EReal) :
    (⟨2, ![16384, 1]⟩ : Shape).Idx → EReal :=
  fun i => mixedAt x v W b (i 0)

end Cert.Heads

end
-- ==== Proof.Blocks.lean ====
/-
  From what one grid point writes to the whole result arrays.

  The grid has 32 points. Point `t` is handed rows `512 t … 512 t + 511` of the activations and of the coefficients,
  and the whole of the prepared weight matrix and bias row; it writes rows `512 t … 512 t + 511` of the two results.
  So the body's value at row `p` of its block is the specification's value at row `512 t + p` of the arrays, the 32
  written blocks are restrictions of ONE function of the argument arrays, and since every row lies in exactly the
  block of point `row / 512`, the arrays end holding that function.
-/
import proofs.«100380_j6373731467819_2_alg».proof.Proof.Gen.KernelIdeal.Frame
import proofs.«100380_j6373731467819_2_alg».proof.Proof.Payload
import proofs.«100380_j6373731467819_2_alg».proof.Proof.HostPrefix
import proofs.«100380_j6373731467819_2_alg».proof.Proof.Spec
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem
open Idealize.ShloMosaic.Pipeline (Dat)
open Idealize.ShloMosaic.ValueIdx Cert.KernelIdeal Cert.KernelIdeal.Gen Cert.KernelIdeal.Body Cert.KernelIdeal.Entry Cert.Heads

/-! ## One point, over any block contents -/

/-- If a block `x0` holds rows `512 T …` of `X`, `x2` holds `W` transposed in its first 21 columns and `x3` holds `b` as a
    row, the heads the body computes at row `y 0`, head `y 1` are the specification's at row `512 T + y 0`. -/
theorem heads_point (X : S16384x4096.Idx → EReal) (W : S21x4096.Idx → EReal) (b : S21.Idx → EReal) (T : Nat) (hT : T < 32)
    (x0 : Vec Ideal S512x4096 .f32) (x2 : Vec Ideal S4096x128 .f32) (x3 : Vec Ideal S1x21 .f32)
    (h0 : ∀ (p : Fin 512) (k : Fin 4096), x0 (ix2 p k) = X (ix2 (⟨T * 512 + p.val, by omega⟩ : Fin 16384) k))
    (h2 : ∀ (k : Fin 4096) (a : Fin 21), x2 (ix2 k (lane a)) = W (ix2 a k))
    (h3 : ∀ a : Fin 21, x3 (ix2 (0 : Fin 1) a) = b (ix1 a))
    (y : S512x21.Idx) :
    k0_pay1 (F := Ideal) x0 x2 x3 y = headAt X W b (⟨T * 512 + (y 0).val, by have h : (y 0).val < 512 := (y 0).isLt; omega⟩ : Fin 16384) (y 1) := by
  obtain ⟨p, q, rfl⟩ : ∃ (p : Fin 512) (q : Fin 21), y = ix2 p q := ⟨y 0, y 1, eq_ix2 y⟩
  rw [heads_apply, h3]
  unfold headAt
  exact congrArg (· + b (ix1 q)) (Finset.sum_congr rfl fun k _ => by rw [h0, h2])

/-- With, besides, `x1` holding rows `512 T …` of `v`: the mixed result the body computes at row `y 0` is the
    specification's at row `512 T + y 0`. -/
theorem mixed_point (X : S16384x4096.Idx → EReal) (v : S16384x21.Idx → EReal) (W : S21x4096.Idx → EReal) (b : S21.Idx → EReal)
    (T : Nat) (hT : T < 32)
    (x0 : Vec Ideal S512x4096 .f32) (x1 : Vec Ideal S512x21 .f32) (x2 : Vec Ideal S4096x128 .f32) (x3 : Vec Ideal S1x21 .f32)
    (h0 : ∀ (p : Fin 512) (k : Fin 4096), x0 (ix2 p k) = X (ix2 (⟨T * 512 + p.val, by omega⟩ : Fin 16384) k))
    (h1 : ∀ (p : Fin 512) (a : Fin 21), x1 (ix2 p a) = v (ix2 (⟨T * 512 + p.val, by omega⟩ : Fin 16384) a))
    (h2 : ∀ (k : Fin 4096) (a : Fin 21), x2 (ix2 k (lane a)) = W (ix2 a k))
    (h3 : ∀ a : Fin 21, x3 (ix2 (0 : Fin 1) a) = b (ix1 a))
    (y : S512x1.Idx) :
    k0_pay2 (F := Ideal) x0 x2 x3 x1 y = mixedAt X v W b (⟨T * 512 + (y 0).val, by have h : (y 0).val < 512 := (y 0).isLt; omega⟩ : Fin 16384) := by
  obtain ⟨p, u, rfl⟩ : ∃ (p : Fin 512) (u : Fin 1), y = ix2 p u := ⟨y 0, y 1, eq_ix2 y⟩
  rw [mixed_apply]
  unfold mixedAt
  refine Finset.sum_congr rfl fun a _ => ?_
  rw [heads_point X W b T hT x0 x2 x3 h0 h2 h3 (ix2 p a), h1]

/-! ## The grid's index maps, and each input block as rows of its array -/

theorem hz : (![0, 0] : Fin 2 → Nat) = fun _ => 0 := funext fun a => by fin_cases a <;> rfl

/-- Decided over the 32 points: the activations, the coefficients and the two results move one block of rows per point
    and stay at column block 0; the weights and the bias stay at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (m : (ℓ : Loc nD τ sig) → Buf (Elt Ideal) ℓ) (c : Dev nD)

/-- Point `t`'s block of the activations is rows `512 t …` of the first argument. -/
theorem acts_block (t : Fin cfg0.N) (ht : t.val < 32) (p : Fin 512) (k : Fin 4096) :
    (iblk m c 0 t : Vec Ideal S512x4096 .f32) (ix2 p k)
      = (m ((c : Thread nD τ).loc main_arg0) : S16384x4096.Idx → EReal) (ix2 (⟨t.val * 512 + p.val, by omega⟩ : Fin 16384) k) := by
  obtain ⟨e0, e1, -⟩ := index_maps t
  unfold iblk
  rw [View.read_apply]
  show V m c main_arg0 _ = _
  rw [V_main_arg0]
  congr 1
  funext a; apply Fin.ext
  match a with
  | ⟨0, _⟩ => show win0_0.index t (0 : Fin 2) * 512 + 1 * p.val = t.val * 512 + p.val; rw [e0]; omega
  | ⟨1, _⟩ => show win0_0.index t (1 : Fin 2) * 4096 + 1 * k.val = k.val; rw [e1]; omega

/-- Point `t`'s block of the coefficients is rows `512 t …` of the second argument. -/
theorem coefs_block (t : Fin cfg0.N) (ht : t.val < 32) (p : Fin 512) (a : Fin 21) :
    (iblk m c 1 t : Vec Ideal S512x21 .f32) (ix2 p a)
      = (m ((c : Thread nD τ).loc main_arg1) : S16384x21.Idx → EReal) (ix2 (⟨t.val * 512 + p.val, by omega⟩ : Fin 16384) a) := by
  obtain ⟨-, -, e0, e1, -⟩ := index_maps t
  unfold iblk
  rw [View.read_apply]
  show V m c main_arg1 _ = _
  rw [V_main_arg1]
  congr 1
  funext d; apply Fin.ext
  match d with
  | ⟨0, _⟩ => show win0_1.index t (0 : Fin 2) * 512 + 1 * p.val = t.val * 512 + p.val; rw [e0]; omega
  | ⟨1, _⟩ => show win0_1.index t (1 : Fin 2) * 21 + 1 * a.val = a.val; rw [e1]; omega

/-- Every point's block of the prepared weights is the whole prepared matrix: at `(k, a)` it holds `W[a, k]`. -/
theorem weights_block (t : Fin cfg0.N) (k : Fin 4096) (a : Fin 21) :
    (iblk m c 2 t : Vec Ideal S4096x128 .f32) (ix2 k (lane a))
      = (m ((c : Thread nD τ).loc main_arg2) : S21x4096.Idx → EReal) (ix2 a k) := by
  obtain ⟨-, -, -, -, e0, e1, -⟩ := index_maps t
  refine Eq.trans ?_ (weightsT_apply m c k a)
  unfold iblk
  rw [View.read_apply]
  show V m c main_v1 _ = V m c main_v1 _
  congr 1
  funext d; apply Fin.ext
  match d with
  | ⟨0, _⟩ => show win0_2.index t (0 : Fin 2) * 4096 + 1 * k.val = k.val; rw [e0]; omega
  | ⟨1, _⟩ => show win0_2.index t (1 : Fin 2) * 128 + 1 * a.val = a.val; rw [e1]; omega

/-- Every point's block of the prepared bias is the whole row: at `(0, a)` it holds `b[a]`. -/
theorem bias_block (t : Fin cfg0.N) (a : Fin 21) :
    (iblk m c 3 t : Vec Ideal S1x21 .f32) (ix2 (0 : Fin 1) a)
      = (m ((c : Thread nD τ).loc main_arg3) : S21.Idx → EReal) (ix1 a) := by
  obtain ⟨-, -, -, -, -, -, e0, e1, -⟩ := index_maps t
  refine Eq.trans ?_ (biasRow_apply m c a)
  unfold iblk
  rw [View.read_apply]
  show V m c main_v2 _ = V m c main_v2 _
  congr 1
  funext d; apply Fin.ext
  match d with
  | ⟨0, _⟩ => show win0_3.index t (0 : Fin 2) * 1 + 1 * 0 = 0; rw [e0]
  | ⟨1, _⟩ => show win0_3.index t (1 : Fin 2) * 21 + 1 * a.val = a.val; rw [e1]; omega

end Cert.KernelIdeal.Blocks

end
-- ==== Proof.Arrays.lean ====
/-
  The two result arrays after the kernel's region.

  What point `t` writes back to the heads array is rows `512 t … 512 t + 511` of the specification's heads, and what it
  writes back to the mixed-result column is the same rows of the specification's column. Row `r` lies in the block of
  point `r / 512`, every point writes its blocks back, so both arrays end holding the specification.
-/
import proofs.«100380_j6373731467819_2_alg».proof.Proof.Blocks

set_option maxRecDepth 16384

noncomputable section

namespace Cert.KernelIdeal.Arrays

open Idealize.ShloMosaic Idealize.ShloMosaic.TcCoe Idealize.SL.Sem
open Idealize.ShloMosaic.Pipeline (Dat)
open Idealize.ShloMosaic.ValueIdx Cert.KernelIdeal Cert.KernelIdeal.Gen Cert.KernelIdeal.Body Cert.KernelIdeal.Blocks Cert.Heads

variable (m : (ℓ : Loc nD τ sig) → Buf (Elt Ideal) ℓ) (c : Dev nD)

/-- The four argument arrays on core `c`, at their literal shapes. -/
abbrev argX : S16384x4096.Idx → EReal := m ((c : Thread nD τ).loc main_arg0)
abbrev argV : S16384x21.Idx → EReal := m ((c : Thread nD τ).loc main_arg1)
abbrev argW : S21x4096.Idx → EReal := m ((c : Thread nD τ).loc main_arg2)
abbrev argB : S21.Idx → EReal := m ((c : Thread nD τ).loc main_arg3)

theorem point_lt (t : Fin cfg0.N) : t.val < 32 :=
  lt_of_lt_of_eq t.isLt (N_0 : cfg0.N = 32)

/-! ## What a point writes back -/

/-- The specification's head depends on the row and the head only through their numbers. -/
theorem headAt_congr (X : S16384x4096.Idx → EReal) (W : S21x4096.Idx → EReal) (b : S21.Idx → EReal)
    {r r' : Fin 16384} {a a' : Fin 21} (hr : r.val = r'.val) (ha : a.val = a'.val) :
    headAt X W b r a = headAt X W b r' a' := by
  rw [Fin.ext hr, Fin.ext ha]

/-- Likewise the mixed result and the row. -/
theorem mixedAt_congr (X : S16384x4096.Idx → EReal) (v : S16384x21.Idx → EReal) (W : S21x4096.Idx → EReal)
    (b : S21.Idx → EReal) {r r' : Fin 16384} (hr : r.val = r'.val) : mixedAt X v W b r = mixedAt X v W b r' := by
  rw [Fin.ext hr]

/-- Point `t` writes back block `t` of the specification's heads. -/
theorem heads_flushed (t : Fin cfg0.N) :
    (dats m 0 c).flushed 5 t
      = ((cfg0.win 5).blk t).view.read (Elt Ideal) (heads (argX m c) (argW m c) (argB m c)) := by
  have ht := point_lt t
  obtain ⟨-, -, -, -, -, -, -, -, -, -, e0, e1⟩ := index_maps t
  show (cfg0.win 5).cut (grid0.coords t) ((dats m 0 c).after 5 t) = _
  rw [after0_5]
  unfold out0_5
  rw [View.canon_unit_zero hz]
  simp only [View.ld_unit_zero (S := S512x4096) hz, View.ld_unit_zero (S := S4096x128) hz, View.ld_unit_zero (S := S1x21) hz]
  funext j
  show k0_pay1 (F := Ideal) (iblk m c 0 t) (iblk m c 2 t) (iblk m c 3 t) j
    = heads (argX m c) (argW m c) (argB m c) (((cfg0.win 5).blk t).view.emb j)
  refine (heads_point (argX m c) (argW m c) (argB m c) t.val ht (iblk m c 0 t) (iblk m c 2 t) (iblk m c 3 t)
    (fun p k => acts_block m c t ht p k) (fun k a => weights_block m c t k a) (fun a => bias_block m c t a) j).trans ?_
  unfold heads
  exact headAt_congr (argX m c) (argW m c) (argB m c)
    (by show t.val * 512 + (j 0).val = win0_5.index t (0 : Fin 2) * 512 + 1 * (j 0).val; rw [e0]; omega)
    (by show (j 1).val = win0_5.index t (1 : Fin 2) * 21 + 1 * (j 1).val; rw [e1]; omega)

/-- Point `t` writes back block `t` of the specification's column of mixed results. -/
theorem mixed_flushed (t : Fin cfg0.N) :
    (dats m 0 c).flushed 4 t
      = ((cfg0.win 4).blk t).view.read (Elt Ideal) (mixedColumn (argX m c) (argV m c) (argW m c) (argB m c)) := by
  have ht := point_lt t
  obtain ⟨-, -, -, -, -, -, -, -, e0, e1, -⟩ := index_maps t
  show (cfg0.win 4).cut (grid0.coords t) ((dats m 0 c).after 4 t) = _
  rw [after0_4]
  unfold out0_4
  rw [View.canon_unit_zero hz]
  simp only [View.ld_unit_zero (S := S512x4096) hz, View.ld_unit_zero (S := S4096x128) hz, View.ld_unit_zero (S := S1x21) hz,
    View.ld_unit_zero (S := S512x21) hz]
  funext j
  show k0_pay2 (F := Ideal) (iblk m c 0 t) (iblk m c 2 t) (iblk m c 3 t) (iblk m c 1 t) j
    = mixedColumn (argX m c) (argV m c) (argW m c) (argB m c) (((cfg0.win 4).blk t).view.emb j)
  refine (mixed_point (argX m c) (argV m c) (argW m c) (argB m c) t.val ht (iblk m c 0 t) (iblk m c 1 t) (iblk m c 2 t)
    (iblk m c 3 t) (fun p k => acts_block m c t ht p k) (fun p a => coefs_block m c t ht p a)
    (fun k a => weights_block m c t k a) (fun a => bias_block m c t a) j).trans ?_
  unfold mixedColumn
  exact mixedAt_congr (argX m c) (argV m c) (argW m c) (argB m c)
    (by show t.val * 512 + (j 0).val = win0_4.index t (0 : Fin 2) * 512 + 1 * (j 0).val; rw [e0]; omega)

/-! ## The cover -/

/-- An index of the heads array is in point `t`'s block iff each coordinate is in the block's range on its axis. -/
theorem mem_heads_block (t : Fin cfg0.N) (i : S16384x21.Idx) :
    i ∈ ((cfg0.win 5).blk t).view.set
      ↔ ∀ a : Fin 2, win0_5.index t a * S512x21.size a ≤ (i a).val ∧ (i a).val < win0_5.index t a * S512x21.size a + S512x21.size a := by
  show i ∈ ((View.whole main_v3_1).slice (win0_5.rect t)).set ↔ _
  rw [View.set_slice_whole, Rect.mem_set_unit]
  exact Iff.rfl

/-- The same for the column of mixed results. -/
theorem mem_mixed_block (t : Fin cfg0.N) (i : S16384x1.Idx) :
    i ∈ ((cfg0.win 4).blk t).view.set
      ↔ ∀ a : Fin 2, win0_4.index t a * S512x1.size a ≤ (i a).val ∧ (i a).val < win0_4.index t a * S512x1.size a + S512x1.size a := by
  show i ∈ ((View.whole main_v3_0).slice (win0_4.rect t)).set ↔ _
  rw [View.set_slice_whole, Rect.mem_set_unit]
  exact Iff.rfl

/-- The point whose blocks hold row `r`: `r / 512`. -/
theorem point_of_row (r : Nat) (hr : r < 16384) : ∃ t : Fin cfg0.N, t.val = r / 512 :=
  ⟨⟨r / 512, by rw [show cfg0.N = 32 from N_0]; omega⟩, rfl⟩

/-- Every index of the heads array is in the block of a point that writes it back. -/
theorem heads_cover (i : S16384x21.Idx) :
    ∃ t : Fin cfg0.N, (cfg0.win 5).flush t = true ∧ i ∈ ((cfg0.win 5).blk t).view.set := by
  have hi0 : (i 0).val < 16384 := (i 0).isLt
  have hi1 : (i 1).val < 21 := (i 1).isLt
  obtain ⟨t, ht⟩ := point_of_row (i 0).val hi0
  obtain ⟨-, -, -, -, -, -, -, -, -, -, e0, e1⟩ := index_maps t
  refine ⟨t, flush0_5 t, ?_⟩
  rw [mem_heads_block]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 21 ≤ (i 1).val ∧ (i 1).val < win0_5.index t (1 : Fin 2) * 21 + 21
    rw [e1]; omega

/-- Every index of the column of mixed results is in the block of a point that writes it back. -/
theorem mixed_cover (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  obtain ⟨t, ht⟩ := point_of_row (i 0).val hi0
  obtain ⟨-, -, -, -, -, -, -, -, e0, e1, -⟩ := index_maps t
  refine ⟨t, flush0_4 t, ?_⟩
  rw [mem_mixed_block]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 1 ≤ (i 1).val ∧ (i 1).val < win0_4.index t (1 : Fin 2) * 1 + 1
    rw [e1]; omega

/-! ## The arrays after the region -/

/-- The heads array ends holding the specification's heads. -/
theorem heads_final : (dats m 0 c).arrAt 5 cfg0.N = heads (argX m c) (argW m c) (argB m c) :=
  (dats m 0 c).arrAt_eq_of_cover 5 (heads (argX m c) (argW m c) (argB m c)) (fun t _ => heads_flushed m c t) heads_cover

/-- The column ends holding the specification's mixed results. -/
theorem mixed_final : (dats m 0 c).arrAt 4 cfg0.N = mixedColumn (argX m c) (argV m c) (argW m c) (argB m c) :=
  (dats m 0 c).arrAt_eq_of_cover 4 (mixedColumn (argX m c) (argV m c) (argW m c) (argB m c)) (fun t _ => mixed_flushed m c t)
    mixed_cover

end Cert.KernelIdeal.Arrays

end
-- ==== Proof.LibColumnFlat.lean ====
/-
  A column flattened to a vector, read at an index.

  An `a × 1` column re-laid as a vector of length `a` holds, at entry `i`, the column's entry at row `i`:
  both positions are number `i` in row-major order.
-/
import Idealize.ShloMosaic.Lib.Pipeline.Value
import Idealize.ShloMosaic.Lib.ValueIdx

namespace Cert.LibColumnFlat

open Idealize.ShloMosaic Idealize.ShloMosaic.ValueIdx

variable {α : Type}

/-- An `a × 1` column cast to a length-`a` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnFlat
-- ==== Proof.KernelRun.lean ====
/-
  The idealized kernel's run, with both results named.

  After the region the heads array holds the specification's heads. The one host line after the region flattens the
  16384 × 1 column of mixed results to a vector of 16384 entries, entry `r` being the column's row `r`; so the first
  result is the specification's vector of mixed results. The four arguments end as they were launched.
-/
import proofs.«100380_j6373731467819_2_alg».proof.Proof.Arrays
import proofs.«100380_j6373731467819_2_alg».proof.Proof.LibColumnFlat
import Idealize.ShloMosaic.Lib.StableHlo.Run

set_option maxRecDepth 16384

noncomputable section

namespace Cert.KernelIdeal.RunValue

open Idealize.ShloMosaic Idealize.ShloMosaic.TcCoe Idealize.SL.Sem Idealize.ShloMosaic.StableHlo
open Idealize.ShloMosaic.Pipeline (Dat)
open Idealize.ShloMosaic.ValueIdx Cert.KernelIdeal Cert.KernelIdeal.Gen Cert.KernelIdeal.Arrays Cert.Heads

variable (m : (ℓ : Loc nD τ sig) → Buf (Elt Ideal) ℓ) (ρ : Dev nD → PrngReg)

/-- What the host line after the region leaves in the first result: the column of mixed results, flattened. -/
theorem flattened (c : Dev nD) :
    (Pipeline.afterTail₀ cfgs (dats m) 0 (V0 m) [hostOps1] c main_v4 : S16384.Idx → EReal)
      = mixed (argX m c) (argV m c) (argW m c) (argB m c) := by
  have hcol : (Pipeline.withArrays (cfgs 0).spec c (V0 m c) (fun w => (dats m 0 c).arrAt w (cfgs 0).N)
      (Proc.devRef .tc main_v3_0) : S16384x1.Idx → EReal)
      = mixedColumn (argX m c) (argV m c) (argW m c) (argB m c) :=
    (Pipeline.withArrays_arr spec0 launch0.win.arr_inj c _ _ 4).trans (mixed_final m c)
  unfold Pipeline.afterTail₀
  show StableHlo.after hostOps1 _ (Proc.devRef .tc main_v4) = _
  after_results
  funext i
  obtain ⟨r, rfl⟩ : ∃ r : Fin 16384, i = ix1 r := ⟨i 0, eq_ix1 i⟩
  show shapeCast S16384 (Pipeline.withArrays (cfgs 0).spec c (V0 m c) (fun w => (dats m 0 c).arrAt w (cfgs 0).N)
    (Proc.devRef .tc main_v3_0) : S16384x1.Idx → EReal) shapeCasts_S16384x1_S16384 (ix1 r) = _
  rw [hcol, Cert.LibColumnFlat.shapeCast_a1_a_apply]
  rfl

/-- Every weakly fair execution of the idealized kernel terminates with the first result at the specification's mixed
    results, the second at its heads, and the arguments unchanged. -/
theorem run : θ_run defs (onTc (τ := τ) (main (F := Ideal))) ⟨m, fun _ => 0, ρ⟩ fun r => ∀ c : Dev nD,
      r.2.mem ((c.tc : Thread nD τ).loc main_v4) = mixed (argX m c) (argV m c) (argW m c) (argB m c)
      ∧ r.2.mem ((c.tc : Thread nD τ).loc main_v3_1) = heads (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (flattened m c),
      ((h c).1 5).trans (heads_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.RefIsSpec.lean ====
/-
  The reference computes the heads and the mixed result.

  Its program is: the contraction of `x` with `W` over their shared second axis; the bias broadcast first to one row
  and then to every row, and added; the product with `v` entry by entry; and the sum of each row, started from zero.
  Read at an index, the contraction is the inner product of a row of `x` with a row of `W`, the twice-broadcast bias is
  `b` at the column, and the row sum from zero is the plain sum over the 21 columns.
-/
import proofs.«100380_j6373731467819_2_alg».proof.Proof.Gen.ReferenceIdeal.Read
import proofs.«100380_j6373731467819_2_alg».proof.Proof.Spec

noncomputable section

namespace Cert.ReferenceIdeal.RefValue

open Idealize.ShloMosaic Idealize.ShloMosaic.ValueIdx Cert.ReferenceIdeal Cert.ReferenceIdeal.Read Cert.Heads

/-- The left operand of the contraction is read at (row, shared coordinate). -/
theorem left_idx (i : S16384x21.Idx) (k : Fin 4096) : lidx_main_v0 i k = ix2 (i 0) k :=
  funext fun a => Fin.ext (by match a with | ⟨0, _⟩ => rfl | ⟨1, _⟩ => rfl)
/-- The right operand is read at (head, shared coordinate). -/
theorem right_idx (i : S16384x21.Idx) (k : Fin 4096) : ridx_main_v0 i k = ix2 (i 1) k :=
  funext fun a => Fin.ext (by match a with | ⟨0, _⟩ => rfl | ⟨1, _⟩ => rfl)
/-- The bias, broadcast to a row and then to every row, is read at the column. -/
theorem bias_idx (i : S16384x21.Idx) : idx_main_v1 (idx_main_v2 i) = ix1 (i 1) :=
  funext fun a => Fin.ext (by match a with | ⟨0, _⟩ => rfl)
/-- The summed array is read at (row, summed column). -/
theorem col_idx (i : S16384.Idx) (k : Fin 21) : idx_main_v5 i k = ix2 (i 0) k :=
  funext fun a => Fin.ext (by match a with | ⟨0, _⟩ => rfl | ⟨1, _⟩ => rfl)

/-- The reference's second result, at an index, is the head. -/
theorem heads_at (x : S16384x4096.Idx → EReal) (W : S21x4096.Idx → EReal) (b : S21.Idx → EReal) (i : S16384x21.Idx) :
    val_main_v3 (F := Ideal) x W b i = headAt x W b (i 0) (i 1) := by
  rw [val_main_v3_apply, val_main_v0_apply, val_main_v2_apply, val_main_v1_apply, bias_idx]
  simp only [left_idx, right_idx]
  rfl

/-- The reference's second result is the array of heads. -/
theorem heads_eq (x : S16384x4096.Idx → EReal) (W : S21x4096.Idx → EReal) (b : S21.Idx → EReal) :
    val_main_v3 (F := Ideal) x W b = heads x W b :=
  funext fun i => heads_at x W b i

/-- The reference's first result is the vector of mixed results. -/
theorem mixed_eq (x : S16384x4096.Idx → EReal) (v : S16384x21.Idx → EReal) (W : S21x4096.Idx → EReal)
    (b : S21.Idx → EReal) : val_main_v5 (F := Ideal) x v W b = mixed x v W b := by
  funext i
  have h0 : ∀ j, val_main_cst (F := Ideal) j = (0 : EReal) := fun _ => Ideal.ofBits_zero_f32
  rw [val_main_v5_apply, h0, zero_add]
  show _ = ∑ a : Fin 21, headAt x W b (i 0) a * v (ix2 (i 0) a)
  refine Finset.sum_congr rfl fun k _ => ?_
  rw [val_main_v4_apply, heads_at, col_idx]
  rfl

end Cert.ReferenceIdeal.RefValue

end
-- ==== Proof.lean ====
/-
  Twenty-one linear heads and their weighted sum: the kernel against its reference, on the extended reals.

  Arguments: activations `x` (16384 × 4096), coefficients `v` (16384 × 21), weights `W` (21 × 4096), biases `b` (21).
  Results: the heads `out[r, a] = (∑ k, x[r, k] · W[a, k]) + b[a]` and their mix `result[r] = ∑ a, out[r, a] · v[r, a]`.

  The reference contracts `x` with `W` over their shared axis, adds the bias broadcast to every row, multiplies by `v`
  and sums each row from zero. The kernel pads `W` to 128 rows, transposes it, and on each of 32 blocks of 512 rows
  multiplies the block of `x` by the 4096 × 128 matrix into a zero accumulator, keeps the first 21 columns, adds the bias
  row, stores that, multiplies by the block of `v`, sums each row and stores the column; the host then flattens the
  column. On the extended reals the narrowing of the matrix operands is the identity, entry `(k, a)` of the prepared
  matrix for `a < 21` is `W[a, k]`, the padding columns are cut away before anything reads them, and a sum started from
  zero is the sum. So both programs compute the two formulas above, index by index; the only laws used are
  `0 + s = s` and the re-indexing of finite sums, which hold at the infinities too, so the finiteness of the inputs is
  not used.

  The kernel's and the idealized kernel's frames are the generated ones; the reference's frame is its generated run with
  the results dropped. The idealization rewrote nothing, so there is nothing to preserve.
-/
import proofs.«100380_j6373731467819_2_alg».proof.Defs
import proofs.«100380_j6373731467819_2_alg».proof.Proof.Gen.Kernel
import proofs.«100380_j6373731467819_2_alg».proof.Proof.Gen.Kernel.Skeleton
import proofs.«100380_j6373731467819_2_alg».proof.Proof.Gen.Kernel.Launch
import proofs.«100380_j6373731467819_2_alg».proof.Proof.Gen.Kernel.Points
import proofs.«100380_j6373731467819_2_alg».proof.Proof.Gen.Kernel.Frame
import proofs.«100380_j6373731467819_2_alg».proof.Proof.Gen.KernelIdeal
import proofs.«100380_j6373731467819_2_alg».proof.Proof.Gen.KernelIdeal.Skeleton
import proofs.«100380_j6373731467819_2_alg».proof.Proof.Gen.KernelIdeal.Launch
import proofs.«100380_j6373731467819_2_alg».proof.Proof.Gen.KernelIdeal.Points
import proofs.«100380_j6373731467819_2_alg».proof.Proof.Gen.KernelIdeal.Frame
import proofs.«100380_j6373731467819_2_alg».proof.Proof.Gen.ReferenceIdeal
import proofs.«100380_j6373731467819_2_alg».proof.Proof.Gen.ReferenceIdeal.Run
import proofs.«100380_j6373731467819_2_alg».proof.Proof.Gen.ReferenceIdeal.Read
import proofs.«100380_j6373731467819_2_alg».proof.Proof.Gen.Pre_finite_inputs
import proofs.«100380_j6373731467819_2_alg».proof.Proof.KernelRun
import proofs.«100380_j6373731467819_2_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the mixed results and the heads of those
    arguments: the kernel by its run read block by block, the reference by its run read operation by operation. -/
theorem algebraic : Cert.algebraic_KernelIdeal_ReferenceIdeal := by
  intro m ρ m' ρ' _ hagree
  refine ⟨fun c => Cert.Heads.mixed (Cert.KernelIdeal.Arrays.argX m c) (Cert.KernelIdeal.Arrays.argV m c)
      (Cert.KernelIdeal.Arrays.argW m c) (Cert.KernelIdeal.Arrays.argB m c),
    fun c => Cert.Heads.heads (Cert.KernelIdeal.Arrays.argX m c) (Cert.KernelIdeal.Arrays.argW m c)
      (Cert.KernelIdeal.Arrays.argB m c),
    Cert.KernelIdeal.RunValue.run m ρ, ?_⟩
  refine (θ_run Cert.ReferenceIdeal.defs _ _).mono (fun _ h c => ?_) (Cert.ReferenceIdeal.Value.run (F := Ideal) m' ρ')
  obtain ⟨a0, a1, a2, a3⟩ := hagree c
  refine ⟨(h c).1.trans ((Cert.ReferenceIdeal.Read.val_main_v5_eq _ _ _ _).trans
      ((Cert.ReferenceIdeal.RefValue.mixed_eq _ _ _ _).trans ?_)),
    (h c).2.1.trans ((Cert.ReferenceIdeal.Read.val_main_v3_eq _ _ _).trans
      ((Cert.ReferenceIdeal.RefValue.heads_eq _ _ _).trans ?_)),
    (h c).2.2⟩
  · rw [a0, a1, a2, a3]
  · rw [a0, a2, a3]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
